-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S8 : Shape := ⟨1, ![8]⟩
abbrev S8x2048x1408 : Shape := ⟨3, ![8, 2048, 1408]⟩
abbrev S8x1408x2048 : Shape := ⟨3, ![8, 1408, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn_part1 {F : FTy → Type} [FloatOps F] (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  main_v18

def fn {F : FTy → Type} [FloatOps F] (main_arg0 : FVec F S32768x2048 .f32) (main_arg1 : IVec S8 32) (main_arg2 : FVec F S8x2048x1408 .f32) (main_arg3 : FVec F S8x2048x1408 .f32) (main_arg4 : FVec F S8x1408x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S8x2048x1408 .f32 := Host.absf main_arg2
  let main_cst_0 : FVec F S_ .f32 := constant S_ .f32 0x7F800000#32
  let main_v5 : FVec F S8x2048x1408 .f32 := broadcastInDim S8x2048x1408 ![] bcast_S_S8x2048x1408 main_cst_0
  let main_v6 : IVec S8x2048x1408 1 := cmpf .olt main_v4 main_v5
  let main_c_1 : IVec S_ 1 := constantI S_ 1 1#1
  let main_v7 : IVec S_ 1 := (fun x v => Host.reduce IntOp.andi x v reducesTo_S8x2048x1408_S_d0_1_2 h_S_) main_v6 main_c_1
  let main_v8 : IVec S_ 1 := andi main_v3 main_v7
  let main_v9 : FVec F S8x2048x1408 .f32 := Host.absf main_arg3
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S8x1408x2048 .f32 := Host.absf main_arg4
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_v13 main_v16
-- ==== Kernel.lean ====
abbrev S32768x2048 : Shape := ⟨2, ![32768, 2048]⟩
abbrev S8 : Shape := ⟨1, ![8]⟩
abbrev S8x2048x1408 : Shape := ⟨3, ![8, 2048, 1408]⟩
abbrev S8x1408x2048 : Shape := ⟨3, ![8, 1408, 2048]⟩
abbrev S8x4096x2048 : Shape := ⟨3, ![8, 4096, 2048]⟩
abbrev S8x4096x1408 : Shape := ⟨3, ![8, 4096, 1408]⟩
abbrev S1x1024x2048 : Shape := ⟨3, ![1, 1024, 2048]⟩
abbrev S1x2048x128 : Shape := ⟨3, ![1, 2048, 128]⟩
abbrev S1x1024x128 : Shape := ⟨3, ![1, 1024, 128]⟩
abbrev S1024x2048 : Shape := ⟨2, ![1024, 2048]⟩
abbrev S2048x128 : Shape := ⟨2, ![2048, 128]⟩
abbrev S1024x128 : Shape := ⟨2, ![1024, 128]⟩
abbrev S1x128x2048 : Shape := ⟨3, ![1, 128, 2048]⟩
abbrev S128x2048 : Shape := ⟨2, ![128, 2048]⟩

abbrev nBuf : Space → Nat
  | .hbm => 9
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S8, .i32⟩
  | .hbm, ⟨2, _⟩ => ⟨S8x2048x1408, .f32⟩
  | .hbm, ⟨3, _⟩ => ⟨S8x2048x1408, .f32⟩
  | .hbm, ⟨4, _⟩ => ⟨S8x1408x2048, .f32⟩
  | .hbm, ⟨5, _⟩ => ⟨S8x4096x2048, .f32⟩
  | .hbm, ⟨6, _⟩ => ⟨S8x4096x1408, .bf16⟩
  | .hbm, ⟨7, _⟩ => ⟨S8x4096x2048, .f32⟩
  | .hbm, ⟨8, _⟩ => ⟨S32768x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x128x2048, .f32⟩
  | .local _ .vmem, ⟨11, _⟩ => ⟨S1x128x2048, .f32⟩
  | .local _ .vmem, ⟨12, _⟩ => ⟨S1x1024x2048, .f32⟩
  | .local _ .vmem, ⟨13, _⟩ => ⟨S1x1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 4, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![8, 4, 11], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S32768x2048_S8x4096x2048 : S32768x2048.ShapeCasts S8x4096x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S1024x2048_S1x1024x2048 : S1024x2048.ShapeCasts S1x1024x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S8x4096x2048_S32768x2048 : S8x4096x2048.ShapeCasts S32768x2048
  dot_S1024x2048_S2048x128_S1024x128_1_0_0_1_n_n_wf : DotDims.WF S1024x2048 S2048x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x1408.size a
  hwx0_1 : ∀ i : grid0.Coords, EltTy.bits .f32 = 32 ∨ (Rect.block (s := S8x2048x1408) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x1408.size a
  hwx0_2 : ∀ i : grid0.Coords, EltTy.bits .f32 = 32 ∨ (Rect.block (s := S8x2048x1408) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x4096x1408.size a
  hwx0_3 : ∀ i : grid0.Coords, EltTy.bits .bf16 = 32 ∨ (Rect.block (s := S8x4096x1408) S1x1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x4096x1408.size a
  hwx1_0 : ∀ i : grid1.Coords, EltTy.bits .bf16 = 32 ∨ (Rect.block (s := S8x4096x1408) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x2048.size a ≤ S8x1408x2048.size a
  hwx1_1 : ∀ i : grid1.Coords, EltTy.bits .f32 = 32 ∨ (Rect.block (s := S8x1408x2048) S1x128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S8x4096x2048.size a
  hwx1_2 : ∀ i : grid1.Coords, EltTy.bits .f32 = 32 ∨ (Rect.block (s := S8x4096x2048) S1x1024x2048.size (cc1_transform_2 i) (hinb1_2 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x2048 : Shape := ⟨2, ![32768, 2048]⟩
abbrev S8 : Shape := ⟨1, ![8]⟩
abbrev S8x2048x1408 : Shape := ⟨3, ![8, 2048, 1408]⟩
abbrev S8x1408x2048 : Shape := ⟨3, ![8, 1408, 2048]⟩
abbrev S8x4096x2048 : Shape := ⟨3, ![8, 4096, 2048]⟩
abbrev S8x4096x1408 : Shape := ⟨3, ![8, 4096, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8, .i32⟩
  | .hbm, ⟨2, _⟩ => ⟨S8x2048x1408, .f32⟩
  | .hbm, ⟨3, _⟩ => ⟨S8x2048x1408, .f32⟩
  | .hbm, ⟨4, _⟩ => ⟨S8x1408x2048, .f32⟩
  | .hbm, ⟨5, _⟩ => ⟨S8x4096x2048, .f32⟩
  | .hbm, ⟨6, _⟩ => ⟨S8x4096x1408, .f32⟩
  | .hbm, ⟨7, _⟩ => ⟨S8x4096x1408, .f32⟩
  | .hbm, ⟨8, _⟩ => ⟨S8x4096x1408, .f32⟩
  | .hbm, ⟨9, _⟩ => ⟨S_, .f32⟩
  | .hbm, ⟨10, _⟩ => ⟨S8x4096x1408, .f32⟩
  | .hbm, ⟨11, _⟩ => ⟨S8x4096x1408, .f32⟩
  | .hbm, ⟨12, _⟩ => ⟨S_, .f32⟩
  | .hbm, ⟨13, _⟩ => ⟨S8x4096x1408, .f32⟩
  | .hbm, ⟨14, _⟩ => ⟨S8x4096x1408, .f32⟩
  | .hbm, ⟨15, _⟩ => ⟨S8x4096x1408, .f32⟩
  | .hbm, ⟨16, _⟩ => ⟨S8x4096x1408, .f32⟩
  | .hbm, ⟨17, _⟩ => ⟨S8x4096x1408, .f32⟩
  | .hbm, ⟨18, _⟩ => ⟨S8x4096x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S32768x2048_S8x4096x2048 : S32768x2048.ShapeCasts S8x4096x2048
  bcast_S_S8x4096x1408 : S_.BroadcastsInDim S8x4096x1408 (![] : Fin 0 → Fin S8x4096x1408.rank)
  shapeCasts_S8x4096x2048_S32768x2048 : S8x4096x2048.ShapeCasts S32768x2048
  dot_S8x4096x2048_S8x2048x1408_S8x4096x1408_2_1_1_2_0_0_wf : DotDims.WF S8x4096x2048 S8x2048x1408 S8x4096x1408 [2] [1] [1] [2] [0] [0]
  dot_S8x4096x1408_S8x1408x2048_S8x4096x2048_2_1_1_2_0_0_wf : DotDims.WF S8x4096x1408 S8x1408x2048 S8x4096x2048 [2] [1] [1] [2] [0] [0]

variable [Facts₀]

def dot_S8x4096x2048_S8x2048x1408_S8x4096x1408_2_1_1_2_0_0 : DotDims S8x4096x2048 S8x2048x1408 S8x4096x1408 where
  lhsContracting := [2]
  rhsContracting := [1]
  lhsNonContracting := [1]
  rhsNonContracting := [2]
  lhsBatch := [0]
  rhsBatch := [0]
  wf := dot_S8x4096x2048_S8x2048x1408_S8x4096x1408_2_1_1_2_0_0_wf
def dot_S8x4096x1408_S8x1408x2048_S8x4096x2048_2_1_1_2_0_0 : DotDims S8x4096x1408 S8x1408x2048 S8x4096x2048 where
  lhsContracting := [2]
  rhsContracting := [1]
  lhsNonContracting := [1]
  rhsNonContracting := [2]
  lhsBatch := [0]
  rhsBatch := [0]
  wf := dot_S8x4096x1408_S8x1408x2048_S8x4096x2048_2_1_1_2_0_0_wf

class Facts : Prop extends Facts₀ where

variable [Facts]
-- ==== Proof.RunValue.lean ====
/-
  The idealized kernel's run, with the result buffer's final contents NAMED.

  The program is two grid regions between two host reshapes. The memory at each boundary is a fold from the
  launch memory: after the first reshape, after the first region's write-backs, after the second region's, after the
  last reshape (`Gen.W1 … Gen.W4`). Every weakly fair execution ends with every unscoped buffer at the last fold, so
  the result buffer ends at that fold's value there, and the arguments end as launched. The result's fold is the
  reshape of what the second region's write-backs leave in its output array (`result_fold`).
-/
import proofs.«121041_j5669356830747_2_alg».proof.Proof.Gen.KernelIdeal.Frame
import Idealize.ShloMosaic.Lib.StableHlo.Run

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the five arguments as launched: the segments' run, the final state read buffer by buffer. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The last boundary's contents at the result buffer: the closing reshape of the second region's output array as
    its write-backs leave it. -/
theorem result_fold (c : Dev nD) :
    W4 m ρ c (Proc.devRef .tc main_v3)
      = shapeCast S32768x2048 ((dat1 (V2 m ρ) c).arrAt 2 cfg1.N) shapeCasts_S8x4096x2048_S32768x2048 := by
  rw [← W3_arr m ρ c 2]
  show StableHlo.after hostOps2 (W3 m ρ c) (Proc.devRef .tc main_v3) = _
  after_results <;> rfl

/-- The second region enters with its first operand at what the first region's write-backs leave in the hidden
    array, and its second operand (the down-projection weights) as launched. -/
theorem entry2_hidden (c : Dev nD) : V2 m ρ c main_v1 = (dat0 (V1 m ρ) c).arrAt 3 cfg0.N := W2_arr m ρ c 3

theorem entry2_wdown (c : Dev nD) : V2 m ρ c main_arg4 = m ((c : Thread nD τ).loc main_arg4) := by
  show W2 m ρ c (Proc.devRef .tc main_arg4) = _
  rw [W2_of_ne m ρ c main_arg4 (by decide)]
  show StableHlo.after hostOps0 (W0 m ρ c) (Proc.devRef .tc main_arg4) = _
  after_results <;> rfl

/-- The first region enters with the tokens reshaped to one slab per expert and both weight arrays as launched. -/
theorem entry1_tokens (c : Dev nD) :
    V1 m ρ c main_v0 = shapeCast S8x4096x2048 (m ((c : Thread nD τ).loc main_arg0)) shapeCasts_S32768x2048_S8x4096x2048 := by
  show StableHlo.after hostOps0 (W0 m ρ c) (Proc.devRef .tc main_v0) = _
  after_results <;> rfl

theorem entry1_wgate (c : Dev nD) : V1 m ρ c main_arg2 = m ((c : Thread nD τ).loc main_arg2) := by
  show StableHlo.after hostOps0 (W0 m ρ c) (Proc.devRef .tc main_arg2) = _
  after_results <;> rfl

theorem entry1_wup (c : Dev nD) : V1 m ρ c main_arg3 = m ((c : Thread nD τ).loc main_arg3) := by
  show StableHlo.after hostOps0 (W0 m ρ c) (Proc.devRef .tc main_arg3) = _
  after_results <;> rfl

end Cert.KernelIdeal.RunValue

end
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.SwigluSpec.lean ====
/-
  The mathematics of the grouped SwiGLU expert layer, over the extended reals, stated once for both programs.

  For expert `e`, token `t` and hidden unit `h`, the two input projections are
  `gate e t h = ∑ k, x[e,t,k] · w_gate[e,k,h]` and `up e t h = ∑ k, x[e,t,k] · w_up[e,k,h]` (2048 terms each); the
  hidden activation is `silu (gate) · up` with `silu g = g · 1/(1 + e^(-g))`; the output is the down projection
  `out[e,t,d] = ∑ h, hidden[e,t,h] · w_down[e,h,d]` (1408 terms). One program sums the 1408 terms at once; the other
  sums them in eleven consecutive runs of 128 and adds the eleven partial sums in order, starting from zero. Addition of
  extended reals is commutative and associative, so the two agree (`sum_by_runs`): no finiteness is used.
-/
import Idealize.ShloMosaic.PureOps.Ideal
import Idealize.ShloMosaic.PureOps.Ideal.Laws
import Idealize.ShloMosaic.PureOps.IdealRules
import Idealize.ShloMosaic.Lib.ValueIdx
import proofs.«121041_j5669356830747_2_alg».proof.Proof.LibSumRuns

noncomputable section

open scoped BigOperators

namespace Cert.Swiglu

open Idealize.ShloMosaic Idealize.ShloMosaic.ValueIdx

/-- The tokens, one [4096, 2048] slab per expert; also the shape of the output. -/
abbrev Tok : Shape := ⟨3, ![8, 4096, 2048]⟩
/-- An input projection's weights, per expert. -/
abbrev WIn : Shape := ⟨3, ![8, 2048, 1408]⟩
/-- The hidden activations, per expert. -/
abbrev Hid : Shape := ⟨3, ![8, 4096, 1408]⟩
/-- The down projection's weights, per expert. -/
abbrev WOut : Shape := ⟨3, ![8, 1408, 2048]⟩

/-- One entry of an input projection: row `t` of expert `e`'s tokens against column `h` of its weights. -/
def proj (x : Tok.Idx → EReal) (w : WIn.Idx → EReal) (e : Fin 8) (t : Fin 4096) (h : Fin 1408) : EReal :=
  ∑ k : Fin 2048, x (ix3 e t k) * w (ix3 e k h)

/-- `silu g = g · logistic g`. -/
def silu (g : EReal) : EReal := g * Ideal.logistic g

/-- One hidden activation: `silu (gate) · up`. -/
def hiddenAt (x : Tok.Idx → EReal) (wg wu : WIn.Idx → EReal) (e : Fin 8) (t : Fin 4096) (h : Fin 1408) : EReal :=
  silu (proj x wg e t h) * proj x wu e t h

/-- The hidden activations as one array. -/
def hidden (x : Tok.Idx → EReal) (wg wu : WIn.Idx → EReal) : Hid.Idx → EReal :=
  fun i => hiddenAt x wg wu (i 0) (i 1) (i 2)

/-- One entry of the down projection. -/
def downAt (hd : Hid.Idx → EReal) (wd : WOut.Idx → EReal) (e : Fin 8) (t : Fin 4096) (d : Fin 2048) : EReal :=
  ∑ k : Fin 1408, hd (ix3 e t k) * wd (ix3 e k d)

/-- The down projection as one array. -/
def down (hd : Hid.Idx → EReal) (wd : WOut.Idx → EReal) : Tok.Idx → EReal :=
  fun i => downAt hd wd (i 0) (i 1) (i 2)

/-- The whole layer: the down projection of the hidden activations. -/
def layer (x : Tok.Idx → EReal) (wg wu : WIn.Idx → EReal) (wd : WOut.Idx → EReal) : Tok.Idx → EReal :=
  down (hidden x wg wu) wd

/-- The tokens as they arrive: all experts' slabs stacked, [8 · 4096, 2048]; also how the output leaves. -/
abbrev Flat : Shape := ⟨2, ![32768, 2048]⟩

/-- The layer on the stacked tokens: split into per-expert slabs (a reshape: the same row-major order), apply the
    layer, stack the result back. `h1`, `h2`: the two shapes have the same number of elements. -/
def result (h1 : Flat.ShapeCasts Tok) (h2 : Tok.ShapeCasts Flat) (x : Flat.Idx → EReal) (wg wu : WIn.Idx → EReal)
    (wd : WOut.Idx → EReal) : Flat.Idx → EReal :=
  shapeCast Flat (layer (shapeCast Tok x h1) wg wu wd) h2

/-- A sum of 1408 terms is the sum of its eleven consecutive runs of 128. -/
theorem sum_by_runs {M : Type*} [AddCommMonoid M] (g : Fin 1408 → M) :
    ∑ k : Fin 1408, g k = ∑ s : Fin 11, ∑ r : Fin 128, g ⟨s.val * 128 + r.val, by omega⟩ :=
  Cert.Lib.SumRuns.sum_runs 11 128 g

/-- The float zero word denotes zero. -/
theorem zero_f32 : Ideal.ofBits .f32 0x00000000#32 = 0 := Ideal.ofBits_zero_f32

/-- The float word of `1.0` denotes one. -/
theorem one_f32 : Ideal.ofBits .f32 0x3F800000#32 = 1 := IdealRules.sign_bit.ideal_onePat .f32

/-- `1 / (1 + e^(-g))`, spelt with the host's division, negation and exponential, is the logistic function. -/
theorem logistic_spelt (g : EReal) :
    Ideal.div (Ideal.ofBits .f32 0x3F800000#32) (Ideal.ofBits .f32 0x3F800000#32 + Ideal.exp (-g)) = Ideal.logistic g := by
  rw [one_f32]; rfl

end Cert.Swiglu

end
-- ==== Proof.GateUpValue.lean ====
/-
  The first region: what its write-backs leave in the hidden array.

  Grid point `t` of the 8 × 4 × 11 grid is (expert `t / 44`, token tile `t / 11 % 4`, hidden tile `t % 11`). Its body
  reads a [1024, 2048] tile of that expert's tokens and a [2048, 128] tile of each input-projection weight array,
  multiplies (two contractions of 2048 terms into a zero accumulator), applies `silu` to the gate product, multiplies
  by the up product, and stores the [1024, 128] result: rows `1024 · (t / 11 % 4) + r`, hidden units
  `128 · (t % 11) + h` of expert `t / 44`. Every point writes its block back, the blocks tile the hidden array, and each
  is the matching block of ONE function of the arrays the region enters with: `Swiglu.hidden` (`hidden_array`).
-/
import proofs.«121041_j5669356830747_2_alg».proof.Proof.Gen.KernelIdeal.Frame
import proofs.«121041_j5669356830747_2_alg».proof.Proof.SwigluSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GateUp

open Cert.KernelIdeal Cert.KernelIdeal.Gen Idealize.ShloMosaic Idealize.ShloMosaic.TcCoe Idealize.SL.Sem
open Idealize.ShloMosaic.ValueIdx
open Idealize.ShloMosaic.Pipeline (Dat)
open Cert.Swiglu

/-! ## The body's arithmetic at one element -/

/-- The lane-wise logistic read at an index. -/
theorem logistic_apply {s : Shape} {φ : FTy} (a : FVec Ideal s φ) (i : s.Idx) : logistic a i = Ideal.logistic (a i) := rfl

theorem lhsA_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsA_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsA_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsA_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- A [1024, 2048] by [2048, 128] product into the zero accumulator, at entry (r, h): the 2048-term sum. -/
theorem product_apply (l : FVec Ideal S1024x2048 .bf16) (w : FVec Ideal S2048x128 .bf16) (r : Fin 1024) (h : Fin 128) :
    matmul dot_S1024x2048_S2048x128_S1024x128_1_0_0_1_n_n none l w (constant S1024x128 .f32 0x00000000#32) (ix2 r h)
      = ∑ k : Fin 2048, l (ix2 r k) * w (ix2 k h) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r h) ((contrEquiv1 dot_S1024x2048_S2048x128_S1024x128_1_0_0_1_n_n 2048 rfl rfl).symm k) = ix2 r k := funext fun a => Fin.ext (by
    match a with
    | ⟨0, _⟩ => exact lhsA_0 _ _
    | ⟨1, _⟩ => exact (lhsA_1 _ _).trans hk)
  have er : dot_S1024x2048_S2048x128_S1024x128_1_0_0_1_n_n.rhsIdx (ix2 r h) ((contrEquiv1 dot_S1024x2048_S2048x128_S1024x128_1_0_0_1_n_n 2048 rfl rfl).symm k) = ix2 k h := funext fun a => Fin.ext (by
    match a with
    | ⟨0, _⟩ => exact (rhsA_0 _ _).trans hk
    | ⟨1, _⟩ => exact rhsA_1 _ _)
  rw [el, er]

/-- What the body stores, at row `r` and lane `h` of its block: `silu` of the gate sum times the up sum, over the
    loaded tiles (a change of float format is the identity on extended reals). -/
theorem stored_apply (x0 : Vec Ideal S1x1024x2048 .f32) (x1 x2 : Vec Ideal S1x2048x128 .f32) (z : Fin 1) (r : Fin 1024) (h : Fin 128) :
    k0_pay1 x0 x1 x2 (ix3 z r h)
      = silu (∑ k : Fin 2048, x0 (ix3 (0 : Fin 1) r k) * x1 (ix3 (0 : Fin 1) k h))
        * ∑ k : Fin 2048, x0 (ix3 (0 : Fin 1) r k) * x2 (ix3 (0 : Fin 1) k h) := by
  unfold k0_pay1
  rw [shapeCast_ab_1ab_apply, truncf_apply, mulf_apply, mulf_apply, logistic_apply, product_apply, product_apply]
  simp only [truncf_apply, shapeCast_1ab_ab_apply]
  rfl

/-- If the loaded tiles are the rows and columns of whole arrays `X`, `Wg`, `Wu` that entry (e, t, h) of the hidden
    array depends on, the stored value is the specification's hidden activation there. -/
theorem hidden_of_tiles (x0 : Vec Ideal S1x1024x2048 .f32) (x1 x2 : Vec Ideal S1x2048x128 .f32)
    (X : Tok.Idx → EReal) (Wg Wu : WIn.Idx → EReal) (r : Fin 1024) (h : Fin 128) (e : Fin 8) (t : Fin 4096) (hh : Fin 1408)
    (ex : ∀ k : Fin 2048, x0 (ix3 (0 : Fin 1) r k) = X (ix3 e t k))
    (eg : ∀ k : Fin 2048, x1 (ix3 (0 : Fin 1) k h) = Wg (ix3 e k hh))
    (eu : ∀ k : Fin 2048, x2 (ix3 (0 : Fin 1) k h) = Wu (ix3 e k hh)) :
    silu (∑ k : Fin 2048, x0 (ix3 (0 : Fin 1) r k) * x1 (ix3 (0 : Fin 1) k h))
        * (∑ k : Fin 2048, x0 (ix3 (0 : Fin 1) r k) * x2 (ix3 (0 : Fin 1) k h))
      = hiddenAt X Wg Wu e t hh := by
  unfold hiddenAt proj
  simp only [ex, eg, eu]

/-! ## The blocks -/

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps in closed form, decided over the grid's 352 points. -/
theorem idx0 : ∀ t : Fin cfg0.N,
    win0_0.index t (0 : Fin 3) = t.val / 44 ∧ win0_0.index t (1 : Fin 3) = t.val / 11 % 4 ∧ win0_0.index t (2 : Fin 3) = 0
    ∧ win0_1.index t (0 : Fin 3) = t.val / 44 ∧ win0_1.index t (1 : Fin 3) = 0 ∧ win0_1.index t (2 : Fin 3) = t.val % 11
    ∧ win0_2.index t (0 : Fin 3) = t.val / 44 ∧ win0_2.index t (1 : Fin 3) = 0 ∧ win0_2.index t (2 : Fin 3) = t.val % 11
    ∧ win0_3.index t (0 : Fin 3) = t.val / 44 ∧ win0_3.index t (1 : Fin 3) = t.val / 11 % 4 ∧ win0_3.index t (2 : Fin 3) = t.val % 11 :=
  (by decide +kernel : ∀ t : Fin grid0.N, _)

/-- The token tile at point `t`: row `r`, column `k` of the block is row `1024 · (t / 11 % 4) + r`, column `k` of expert
    `t / 44`'s tokens. -/
theorem tokens_block (c : Dev nD) (t : Fin cfg0.N) (z : Fin 1) (r : Fin 1024) (k : Fin 2048) (i : S8x4096x2048.Idx)
    (h0 : (i 0).val = t.val / 44) (h1 : (i 1).val = t.val / 11 % 4 * 1024 + r.val) (h2 : (i 2).val = k.val) :
    iblk0 V c 0 t (ix3 z r k) = V c main_v0 i := by
  obtain ⟨e0, e1, e2, -⟩ := idx0 t
  show V c main_v0 (((cfg0.win 0).blk t).view.emb (ix3 z r k)) = V c main_v0 i
  refine congrArg (V c main_v0) (funext fun a => Fin.ext ?_)
  have hzv : z.val = 0 := by omega
  match a with
  | ⟨0, _⟩ => show win0_0.index t (0 : Fin 3) * 1 + 1 * z.val = (i 0).val; omega
  | ⟨1, _⟩ => show win0_0.index t (1 : Fin 3) * 1024 + 1 * r.val = (i 1).val; omega
  | ⟨2, _⟩ => show win0_0.index t (2 : Fin 3) * 2048 + 1 * k.val = (i 2).val; omega

/-- The gate-weight tile at point `t`: row `k`, lane `h` of the block is row `k`, column `128 · (t % 11) + h` of expert
    `t / 44`'s weights. -/
theorem gate_block (c : Dev nD) (t : Fin cfg0.N) (z : Fin 1) (k : Fin 2048) (h : Fin 128) (i : S8x2048x1408.Idx)
    (h0 : (i 0).val = t.val / 44) (h1 : (i 1).val = k.val) (h2 : (i 2).val = t.val % 11 * 128 + h.val) :
    iblk0 V c 1 t (ix3 z k h) = V c main_arg2 i := by
  obtain ⟨-, -, -, e0, e1, e2, -⟩ := idx0 t
  show V c main_arg2 (((cfg0.win 1).blk t).view.emb (ix3 z k h)) = V c main_arg2 i
  refine congrArg (V c main_arg2) (funext fun a => Fin.ext ?_)
  have hzv : z.val = 0 := by omega
  match a with
  | ⟨0, _⟩ => show win0_1.index t (0 : Fin 3) * 1 + 1 * z.val = (i 0).val; omega
  | ⟨1, _⟩ => show win0_1.index t (1 : Fin 3) * 2048 + 1 * k.val = (i 1).val; omega
  | ⟨2, _⟩ => show win0_1.index t (2 : Fin 3) * 128 + 1 * h.val = (i 2).val; omega

/-- The up-weight tile at point `t`, likewise. -/
theorem up_block (c : Dev nD) (t : Fin cfg0.N) (z : Fin 1) (k : Fin 2048) (h : Fin 128) (i : S8x2048x1408.Idx)
    (h0 : (i 0).val = t.val / 44) (h1 : (i 1).val = k.val) (h2 : (i 2).val = t.val % 11 * 128 + h.val) :
    iblk0 V c 2 t (ix3 z k h) = V c main_arg3 i := by
  obtain ⟨-, -, -, -, -, -, e0, e1, e2, -⟩ := idx0 t
  show V c main_arg3 (((cfg0.win 2).blk t).view.emb (ix3 z k h)) = V c main_arg3 i
  refine congrArg (V c main_arg3) (funext fun a => Fin.ext ?_)
  have hzv : z.val = 0 := by omega
  match a with
  | ⟨0, _⟩ => show win0_2.index t (0 : Fin 3) * 1 + 1 * z.val = (i 0).val; omega
  | ⟨1, _⟩ => show win0_2.index t (1 : Fin 3) * 2048 + 1 * k.val = (i 1).val; omega
  | ⟨2, _⟩ => show win0_2.index t (2 : Fin 3) * 128 + 1 * h.val = (i 2).val; omega

/-- What point `t` writes back is block `t` of the hidden activations of the arrays the region enters with. -/
theorem flushed_hidden (c : Dev nD) (t : Fin cfg0.N) :
    (dat0 V c).flushed 3 t
      = ((cfg0.win 3).blk t).view.read (Elt Ideal) (hidden (V c main_v0) (V c main_arg2) (V c main_arg3)) := by
  show (cfg0.win 3).cut (grid0.coords t) ((dat0 V c).after 3 t) = _
  rw [after0_3]
  unfold out0_3
  rw [View.canon_unit_zero hz3]
  simp only [View.ld_unit_zero (S := S1x1024x2048) hz3, View.ld_unit_zero (S := S1x2048x128) hz3]
  obtain ⟨-, -, -, -, -, -, -, -, -, d0, d1, d2⟩ := idx0 t
  funext y
  obtain ⟨z, r, h, rfl⟩ : ∃ (z : Fin 1) (r : Fin 1024) (h : Fin 128), y = ix3 z r h := ⟨y 0, y 1, y 2, eq_ix3 y⟩
  have hzv : z.val = 0 := by omega
  show k0_pay1 (iblk0 V c 0 t) (iblk0 V c 1 t) (iblk0 V c 2 t) (ix3 z r h)
    = hidden (V c main_v0) (V c main_arg2) (V c main_arg3) (((cfg0.win 3).blk t).view.emb (ix3 z r h))
  generalize hi : ((cfg0.win 3).blk t).view.emb (ix3 z r h) = i
  have i0 : (i 0).val = t.val / 44 := by
    rw [← hi]; show win0_3.index t (0 : Fin 3) * 1 + 1 * z.val = _; omega
  have i1 : (i 1).val = t.val / 11 % 4 * 1024 + r.val := by
    rw [← hi]; show win0_3.index t (1 : Fin 3) * 1024 + 1 * r.val = _; omega
  have i2 : (i 2).val = t.val % 11 * 128 + h.val := by
    rw [← hi]; show win0_3.index t (2 : Fin 3) * 128 + 1 * h.val = _; omega
  refine (stored_apply (iblk0 V c 0 t) (iblk0 V c 1 t) (iblk0 V c 2 t) z r h).trans ?_
  have ex : ∀ k : Fin 2048, iblk0 V c 0 t (ix3 (0 : Fin 1) r k) = V c main_v0 (ix3 (i 0) (i 1) k) :=
    fun k => tokens_block V c t 0 r k _ i0 i1 rfl
  have eg : ∀ k : Fin 2048, iblk0 V c 1 t (ix3 (0 : Fin 1) k h) = V c main_arg2 (ix3 (i 0) k (i 2)) :=
    fun k => gate_block V c t 0 k h _ i0 rfl i2
  have eu : ∀ k : Fin 2048, iblk0 V c 2 t (ix3 (0 : Fin 1) k h) = V c main_arg3 (ix3 (i 0) k (i 2)) :=
    fun k => up_block V c t 0 k h _ i0 rfl i2
  exact hidden_of_tiles (iblk0 V c 0 t) (iblk0 V c 1 t) (iblk0 V c 2 t) (V c main_v0) (V c main_arg2) (V c main_arg3)
    r h (i 0) (i 1) (i 2) ex eg eu

/-- An index of the hidden array is in point `t`'s block iff each coordinate is in the block's range on its axis. -/
theorem mem_block (t : Fin cfg0.N) (i : S8x4096x1408.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v1).slice (win0_3.rect t)).set ↔ _
  rw [View.set_slice_whole, Rect.mem_set_unit]
  exact Iff.rfl

/-- Every index of the hidden array is in the block of the point (its expert, its token tile, its hidden tile). -/
theorem covered (i : S8x4096x1408.Idx) : ∃ t : Fin cfg0.N, (cfg0.win 3).flush t = true ∧ i ∈ ((cfg0.win 3).blk t).view.set := by
  have b0 : (i 0).val < 8 := (i 0).isLt
  have b1 : (i 1).val < 4096 := (i 1).isLt
  have b2 : (i 2).val < 1408 := (i 2).isLt
  have hN : cfg0.N = 352 := N_0
  refine ⟨⟨((i 0).val * 4 + (i 1).val / 1024) * 11 + (i 2).val / 128, by rw [hN]; omega⟩, flush0_3 _, ?_⟩
  rw [mem_block]
  obtain ⟨-, -, -, -, -, -, -, -, -, d0, d1, d2⟩ := idx0 ⟨((i 0).val * 4 + (i 1).val / 1024) * 11 + (i 2).val / 128, by rw [hN]; omega⟩
  dsimp only at d0 d1 d2
  intro a
  match a with
  | ⟨0, _⟩ =>
    show win0_3.index _ (0 : Fin 3) * 1 ≤ (i 0).val ∧ (i 0).val < win0_3.index _ (0 : Fin 3) * 1 + 1
    rw [d0]; omega
  | ⟨1, _⟩ =>
    show win0_3.index _ (1 : Fin 3) * 1024 ≤ (i 1).val ∧ (i 1).val < win0_3.index _ (1 : Fin 3) * 1024 + 1024
    rw [d1]; omega
  | ⟨2, _⟩ =>
    show win0_3.index _ (2 : Fin 3) * 128 ≤ (i 2).val ∧ (i 2).val < win0_3.index _ (2 : Fin 3) * 128 + 128
    rw [d2]; omega

/-- THE HIDDEN ARRAY after the first region: the hidden activations of the arrays the region enters with. -/
theorem hidden_array (c : Dev nD) :
    (dat0 V c).arrAt 3 cfg0.N = hidden (V c main_v0) (V c main_arg2) (V c main_arg3) :=
  (dat0 V c).arrAt_eq_of_cover 3 _ (fun t _ => flushed_hidden V c t) covered

end Cert.KernelIdeal.GateUp

end
-- ==== Proof.DownValue.lean ====
/-
  The second region: what its write-backs leave in the output array.

  Grid point `t` of the 8 × 4 × 11 grid is (expert `t / 44`, token tile `t / 11 % 4`, hidden tile `t % 11`). The output
  block (expert, token tile) stays in its staging buffer over the eleven points of a run `11 q … 11 q + 10`: the first
  point of the run stores zero, and every point then adds to the buffer the [1024, 128] tile of the hidden array times
  the [128, 2048] tile of the down weights (a contraction of 128 terms into a zero accumulator); the buffer is written
  back after the last point of the run only. So after point `11 q + j` the buffer holds, at row `r` and column `d`,
  zero plus the sum over the tiles `s ≤ j` of their 128-term contributions (`run_apply`, by induction on `j`); at
  `j = 10` the eleven runs of 128 are the whole sum over the 1408 hidden units (`Swiglu.sum_by_runs`), which is the
  specification's down projection of the arrays the region enters with (`output_array`).
-/
import proofs.«121041_j5669356830747_2_alg».proof.Proof.Gen.KernelIdeal.Frame
import proofs.«121041_j5669356830747_2_alg».proof.Proof.SwigluSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Down

open Cert.KernelIdeal Cert.KernelIdeal.Gen Idealize.ShloMosaic Idealize.ShloMosaic.TcCoe Idealize.SL.Sem
open Idealize.ShloMosaic.ValueIdx
open Idealize.ShloMosaic.Pipeline (Dat)
open Cert.Swiglu

/-! ## The body's arithmetic at one element -/

theorem lhsB_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
theorem lhsB_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
theorem rhsB_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
theorem rhsB_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- A [1024, 128] by [128, 2048] product into the zero accumulator, at entry (r, d): the 128-term sum. -/
theorem product_apply (l : FVec Ideal S1024x128 .bf16) (w : FVec Ideal S128x2048 .bf16) (r : Fin 1024) (d : Fin 2048) :
    matmul dot_S1024x128_S128x2048_S1024x2048_1_0_0_1_n_n none l w (constant S1024x2048 .f32 0x00000000#32) (ix2 r d)
      = ∑ k : Fin 128, l (ix2 r k) * w (ix2 k d) := by
  simp only [matmul]
  rw [Ideal.matmul_constant_zero_apply, ← Equiv.sum_comp (contrEquiv1 dot_S1024x128_S128x2048_S1024x2048_1_0_0_1_n_n 128 rfl rfl).symm]
  refine Finset.sum_congr rfl fun k _ => ?_
  have hk := contrEquiv1_symm_val dot_S1024x128_S128x2048_S1024x2048_1_0_0_1_n_n 128 rfl rfl k
  have el : dot_S1024x128_S128x2048_S1024x2048_1_0_0_1_n_n.lhsIdx (ix2 r d) ((contrEquiv1 dot_S1024x128_S128x2048_S1024x2048_1_0_0_1_n_n 128 rfl rfl).symm k) = ix2 r k := funext fun a => Fin.ext (by
    match a with
    | ⟨0, _⟩ => exact lhsB_0 _ _
    | ⟨1, _⟩ => exact (lhsB_1 _ _).trans hk)
  have er : dot_S1024x128_S128x2048_S1024x2048_1_0_0_1_n_n.rhsIdx (ix2 r d) ((contrEquiv1 dot_S1024x128_S128x2048_S1024x2048_1_0_0_1_n_n 128 rfl rfl).symm k) = ix2 k d := funext fun a => Fin.ext (by
    match a with
    | ⟨0, _⟩ => exact (rhsB_0 _ _).trans hk
    | ⟨1, _⟩ => exact rhsB_1 _ _)
  rw [el, er]

/-- The accumulating store, at row `r` and column `d`: what the buffer held there plus the 128-term contribution of the
    loaded hidden tile `x0` and weight tile `x1`. -/
theorem step_apply (x1 : Vec Ideal S1x128x2048 .f32) (acc : Vec Ideal S1x1024x2048 .f32) (x0 : Vec Ideal S1x1024x128 .bf16)
    (z : Fin 1) (r : Fin 1024) (d : Fin 2048) :
    k1_pay2 x1 acc x0 (ix3 z r d)
      = acc (ix3 (0 : Fin 1) r d) + ∑ k : Fin 128, x0 (ix3 (0 : Fin 1) r k) * x1 (ix3 (0 : Fin 1) k d) := by
  unfold k1_pay2
  rw [shapeCast_ab_1ab_apply, addf_apply, shapeCast_1ab_ab_apply, product_apply]
  simp only [truncf_apply, shapeCast_1ab_ab_apply]

/-- The resetting store writes zero everywhere. -/
theorem reset_apply (y : S1x1024x2048.Idx) : k1_pay1 (F := Ideal) y = 0 := by
  unfold k1_pay1
  show Ideal.ofBits .f32 0x00000000#32 = 0
  exact zero_f32

/-- If the loaded tiles are the rows and columns of whole arrays `H`, `Wd` that entry (e, t, d) of the output depends on,
    in the hidden units `128 s … 128 s + 127`, the contribution is that run of the specification's sum. -/
theorem run_of_tiles (x0 : Vec Ideal S1x1024x128 .bf16) (x1 : Vec Ideal S1x128x2048 .f32)
    (H : Hid.Idx → EReal) (Wd : WOut.Idx → EReal) (r : Fin 1024) (d : Fin 2048) (e : Fin 8) (t : Fin 4096) (dd : Fin 2048) (s : Fin 11)
    (eh : ∀ k : Fin 128, x0 (ix3 (0 : Fin 1) r k) = H (ix3 e t ⟨s.val * 128 + k.val, by omega⟩))
    (ew : ∀ k : Fin 128, x1 (ix3 (0 : Fin 1) k d) = Wd (ix3 e ⟨s.val * 128 + k.val, by omega⟩ dd)) :
    ∑ k : Fin 128, x0 (ix3 (0 : Fin 1) r k) * x1 (ix3 (0 : Fin 1) k d)
      = ∑ k : Fin 128, H (ix3 e t ⟨s.val * 128 + k.val, by omega⟩) * Wd (ix3 e ⟨s.val * 128 + k.val, by omega⟩ dd) := by
  simp only [eh, ew]

/-! ## What each case of the body leaves in the output's staging buffer -/

theorem hz3 : (![0, 0, 0] : Fin 3 → Nat) = fun _ => 0 := funext fun a => by fin_cases a <;> rfl

/-- At the first point of a run the body stores zero, reads it back, and leaves zero plus the point's contribution. -/
theorem case_reset (c : Dev nD) (i : grid1.Coords) (a3 : Memref sig .tc .vmem S1x1024x128 .bf16) (h3 : a3.IsWhole)
    (a4 : Memref sig .tc .vmem S1x128x2048 .f32) (h4 : a4.IsWhole) (a5 : Memref sig .tc .vmem S1x1024x2048 .f32) (h5 : a5.IsWhole)
    (hc : cond1_0 i) (x0 : Vec Ideal S1x1024x128 .bf16) (x1 : Vec Ideal S1x128x2048 .f32) :
    out1_A_2 c i a3 h3 a4 h4 a5 h5 hc x0 x1 = k1_pay2 x1 (k1_pay1 (F := Ideal)) x0 := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S1x1024x2048) hz3, View.readCov_unit_zero (S := S1x1024x2048) _ hz3]
  simp only [View.readAt_eq_ld, h3.read_unread, h4.read_unread, View.ld_unit_zero (S := S1x1024x128) hz3,
    View.ld_unit_zero (S := S1x128x2048) hz3]

/-- At every later point of a run the body leaves what the buffer held plus the point's contribution. -/
theorem case_step (c : Dev nD) (i : grid1.Coords) (a3 : Memref sig .tc .vmem S1x1024x128 .bf16) (h3 : a3.IsWhole)
    (a4 : Memref sig .tc .vmem S1x128x2048 .f32) (h4 : a4.IsWhole) (a5 : Memref sig .tc .vmem S1x1024x2048 .f32) (h5 : a5.IsWhole)
    (hc : ¬cond1_0 i) (x0 : Vec Ideal S1x1024x128 .bf16) (x1 : Vec Ideal S1x128x2048 .f32) (xo : Vec Ideal S1x1024x2048 .f32) :
    out1_B_2 c i a3 h3 a4 h4 a5 h5 hc x0 x1 xo = k1_pay2 x1 xo x0 := by
  unfold out1_B_2
  rw [View.read_writes_eq_canon _ _ _ (cover1_B_2 c i a3 h3 a4 h4 a5 h5 hc x0 x1 xo)]
  unfold kernelRun1_B
  dsimp only
  rw [View.canon_unit_zero hz3]
  simp only [View.readAt_eq_ld, h3.read_unread, h4.read_unread, h5.read_unread, View.ld_unit_zero (S := S1x1024x128) hz3,
    View.ld_unit_zero (S := S1x128x2048) hz3, View.ld_unit_zero (S := S1x1024x2048) hz3]

/-! ## The run of eleven points -/

variable (V : (c : Dev nD) → (b : Ref sig .tc) → Buf (Elt Ideal) ((c : Thread nD τ).loc b))

/-- What the first point of a run leaves, from its tiles. -/
def first (c : Dev nD) (n : ℕ) (h : n < cfg1.N) : Vec Ideal S1x1024x2048 .f32 :=
  k1_pay2 (iblk1 V c 1 ⟨n, h⟩) (k1_pay1 (F := Ideal)) (iblk1 V c 0 ⟨n, h⟩)

/-- What a later point leaves, from its tiles and what the point before left. -/
def next (c : Dev nD) (n : ℕ) (h : n < cfg1.N) (acc : Vec Ideal S1x1024x2048 .f32) : Vec Ideal S1x1024x2048 .f32 :=
  k1_pay2 (iblk1 V c 1 ⟨n, h⟩) acc (iblk1 V c 0 ⟨n, h⟩)

/-- After point `t` the buffer holds the fold over its run: `first` at the run's first point `11 (t / 11)`, then `next`
    at each later point up to `t`. -/
theorem buffer_fold (c : Dev nD) (t : ℕ) (ht : t < cfg1.N) (h' : 11 * (t / 11) + t % 11 < cfg1.N) :
    outsAt1 V c t ht = Pipeline.accAt (first V c) (next V c) (11 * (t / 11)) (t % 11) h' :=
  Pipeline.eq_accAt_of_mod (outsAt1 V c) 11 (first V c) (next V c)
    (fun n h h0 => (outsAt1_A V c ⟨n, h⟩ h0).trans (case_reset c _ _ _ _ _ _ _ _ _ _))
    (fun n h hB => (outsAt1_B V c ⟨n + 1, h⟩ hB).trans (case_step c _ _ _ _ _ _ _ _ _ _ _))
    (by decide) t ht h'

/-- A hidden tile against a weight tile at row `r`, column `d`: the 128-term sum. -/
def tileSum (x0 : Vec Ideal S1x1024x128 .bf16) (x1 : Vec Ideal S1x128x2048 .f32) (r : Fin 1024) (d : Fin 2048) : EReal :=
  ∑ k : Fin 128, x0 (ix3 (0 : Fin 1) r k) * x1 (ix3 (0 : Fin 1) k d)

/-- Point `n`'s contribution to row `r`, column `d` of its output block (zero past the grid, where it is never used). -/
def contribution (c : Dev nD) (n : ℕ) (r : Fin 1024) (d : Fin 2048) : EReal :=
  if h : n < cfg1.N then tileSum (iblk1 V c 0 ⟨n, h⟩) (iblk1 V c 1 ⟨n, h⟩) r d else 0

/-- The fold from `b` after `j` further points, at row `r` and column `d`: the sum of the contributions of the points
    `b … b + j` (the zero it starts from dropped). -/
theorem run_apply (c : Dev nD) (b : ℕ) : ∀ (j : ℕ) (h : b + j < cfg1.N) (z : Fin 1) (r : Fin 1024) (d : Fin 2048),
    Pipeline.accAt (first V c) (next V c) b j h (ix3 z r d) = ∑ s ∈ Finset.range (j + 1), contribution V c (b + s) r d
  | 0, h, z, r, d => by
    rw [Pipeline.accAt_zero, Finset.sum_range_one]
    unfold first contribution
    rw [dif_pos h]
    refine (step_apply _ _ _ z r d).trans ?_
    rw [reset_apply, zero_add]
    rfl
  | j + 1, h, z, r, d => by
    rw [Pipeline.accAt_succ, Finset.sum_range_succ, ← run_apply c b j (Nat.lt_of_succ_lt h) 0 r d]
    unfold next contribution
    rw [dif_pos h]
    exact step_apply _ _ _ z r d

/-! ## The blocks -/

/-- The printed index maps in closed form, decided over the grid's 352 points. -/
theorem idx1 : ∀ t : Fin cfg1.N,
    win1_0.index t (0 : Fin 3) = t.val / 44 ∧ win1_0.index t (1 : Fin 3) = t.val / 11 % 4 ∧ win1_0.index t (2 : Fin 3) = t.val % 11
    ∧ win1_1.index t (0 : Fin 3) = t.val / 44 ∧ win1_1.index t (1 : Fin 3) = t.val % 11 ∧ win1_1.index t (2 : Fin 3) = 0
    ∧ win1_2.index t (0 : Fin 3) = t.val / 44 ∧ win1_2.index t (1 : Fin 3) = t.val / 11 % 4 ∧ win1_2.index t (2 : Fin 3) = 0 :=
  (by decide +kernel : ∀ t : Fin grid1.N, _)

/-- The hidden tile at point `t`: row `r`, lane `k` of the block is row `1024 · (t / 11 % 4) + r`, hidden unit
    `128 · (t % 11) + k` of expert `t / 44`. -/
theorem hidden_block (c : Dev nD) (t : Fin cfg1.N) (z : Fin 1) (r : Fin 1024) (k : Fin 128) (i : S8x4096x1408.Idx)
    (h0 : (i 0).val = t.val / 44) (h1 : (i 1).val = t.val / 11 % 4 * 1024 + r.val) (h2 : (i 2).val = t.val % 11 * 128 + k.val) :
    iblk1 V c 0 t (ix3 z r k) = V c main_v1 i := by
  obtain ⟨e0, e1, e2, -⟩ := idx1 t
  show V c main_v1 (((cfg1.win 0).blk t).view.emb (ix3 z r k)) = V c main_v1 i
  refine congrArg (V c main_v1) (funext fun a => Fin.ext ?_)
  have hzv : z.val = 0 := by omega
  match a with
  | ⟨0, _⟩ => show win1_0.index t (0 : Fin 3) * 1 + 1 * z.val = (i 0).val; omega
  | ⟨1, _⟩ => show win1_0.index t (1 : Fin 3) * 1024 + 1 * r.val = (i 1).val; omega
  | ⟨2, _⟩ => show win1_0.index t (2 : Fin 3) * 128 + 1 * k.val = (i 2).val; omega

/-- The down-weight tile at point `t`: row `k`, column `d` of the block is row `128 · (t % 11) + k`, column `d` of expert
    `t / 44`'s weights. -/
theorem wdown_block (c : Dev nD) (t : Fin cfg1.N) (z : Fin 1) (k : Fin 128) (d : Fin 2048) (i : S8x1408x2048.Idx)
    (h0 : (i 0).val = t.val / 44) (h1 : (i 1).val = t.val % 11 * 128 + k.val) (h2 : (i 2).val = d.val) :
    iblk1 V c 1 t (ix3 z k d) = V c main_arg4 i := by
  obtain ⟨-, -, -, e0, e1, e2, -⟩ := idx1 t
  show V c main_arg4 (((cfg1.win 1).blk t).view.emb (ix3 z k d)) = V c main_arg4 i
  refine congrArg (V c main_arg4) (funext fun a => Fin.ext ?_)
  have hzv : z.val = 0 := by omega
  match a with
  | ⟨0, _⟩ => show win1_1.index t (0 : Fin 3) * 1 + 1 * z.val = (i 0).val; omega
  | ⟨1, _⟩ => show win1_1.index t (1 : Fin 3) * 128 + 1 * k.val = (i 1).val; omega
  | ⟨2, _⟩ => show win1_1.index t (2 : Fin 3) * 2048 + 1 * d.val = (i 2).val; omega

/-- What the last point of a run writes back is its block of the down projection of the arrays the region enters with. -/
theorem flushed_down (c : Dev nD) (t : Fin cfg1.N) (hf : (cfg1.win 2).flush t = true) :
    (dat1 V c).flushed 2 t
      = ((cfg1.win 2).blk t).view.read (Elt Ideal) (down (V c main_v1) (V c main_arg4)) := by
  have hN : cfg1.N = 352 := N_1
  have h10 : t.val % 11 = 10 := (flush1_2 t).mp hf
  have htl : t.val < 352 := lt_of_lt_of_eq t.isLt hN
  show (cfg1.win 2).cut (grid1.coords t) ((dat1 V c).after 2 t) = _
  rw [after1_2, buffer_fold V c t.val t.isLt (by omega)]
  obtain ⟨-, -, -, -, -, -, o0, o1, o2⟩ := idx1 t
  funext y
  obtain ⟨z, r, d, rfl⟩ : ∃ (z : Fin 1) (r : Fin 1024) (d : Fin 2048), y = ix3 z r d := ⟨y 0, y 1, y 2, eq_ix3 y⟩
  have hzv : z.val = 0 := by omega
  show Pipeline.accAt (first V c) (next V c) (11 * (t.val / 11)) (t.val % 11) _ (ix3 z r d)
    = down (V c main_v1) (V c main_arg4) (((cfg1.win 2).blk t).view.emb (ix3 z r d))
  generalize hi : ((cfg1.win 2).blk t).view.emb (ix3 z r d) = i
  have i0 : (i 0).val = t.val / 44 := by
    rw [← hi]; show win1_2.index t (0 : Fin 3) * 1 + 1 * z.val = _; omega
  have i1 : (i 1).val = t.val / 11 % 4 * 1024 + r.val := by
    rw [← hi]; show win1_2.index t (1 : Fin 3) * 1024 + 1 * r.val = _; omega
  have i2 : (i 2).val = d.val := by
    rw [← hi]; show win1_2.index t (2 : Fin 3) * 2048 + 1 * d.val = _; omega
  rw [run_apply V c (11 * (t.val / 11)) (t.val % 11) _ z r d, show t.val % 11 + 1 = 11 from by omega, Finset.sum_range]
  show _ = downAt (V c main_v1) (V c main_arg4) (i 0) (i 1) (i 2)
  unfold downAt
  rw [sum_by_runs]
  refine Finset.sum_congr rfl fun s _ => ?_
  have hs : s.val < 11 := s.isLt
  have hn : 11 * (t.val / 11) + s.val < cfg1.N := by omega
  unfold contribution
  rw [dif_pos hn]
  exact run_of_tiles (iblk1 V c 0 ⟨11 * (t.val / 11) + s.val, hn⟩) (iblk1 V c 1 ⟨11 * (t.val / 11) + s.val, hn⟩)
    (V c main_v1) (V c main_arg4) r d (i 0) (i 1) (i 2) s
    (fun k => hidden_block V c ⟨11 * (t.val / 11) + s.val, hn⟩ 0 r k _ (by show (i 0).val = _; dsimp only; omega)
      (by show (i 1).val = _; dsimp only; omega) (by show s.val * 128 + k.val = _; dsimp only; omega))
    (fun k => wdown_block V c ⟨11 * (t.val / 11) + s.val, hn⟩ 0 k d _ (by show (i 0).val = _; dsimp only; omega)
      (by show s.val * 128 + k.val = _; dsimp only; omega) (by show (i 2).val = _; exact i2))

/-- An index of the output array is in point `t`'s block iff each coordinate is in the block's range on its axis. -/
theorem mem_block (t : Fin cfg1.N) (i : S8x4096x2048.Idx) :
    i ∈ ((cfg1.win 2).blk t).view.set ↔ ∀ a : Fin 3, win1_2.index t a * S1x1024x2048.size a ≤ (i a).val ∧ (i a).val < win1_2.index t a * S1x1024x2048.size a + S1x1024x2048.size a := by
  show i ∈ ((View.whole main_v2).slice (win1_2.rect t)).set ↔ _
  rw [View.set_slice_whole, Rect.mem_set_unit]
  exact Iff.rfl

/-- Every index of the output array is in the block written back after the last point of the run of (its expert, its
    token tile). -/
theorem covered (i : S8x4096x2048.Idx) : ∃ t : Fin cfg1.N, (cfg1.win 2).flush t = true ∧ i ∈ ((cfg1.win 2).blk t).view.set := by
  have b0 : (i 0).val < 8 := (i 0).isLt
  have b1 : (i 1).val < 4096 := (i 1).isLt
  have b2 : (i 2).val < 2048 := (i 2).isLt
  have hN : cfg1.N = 352 := N_1
  refine ⟨⟨((i 0).val * 4 + (i 1).val / 1024) * 11 + 10, by rw [hN]; omega⟩, (flush1_2 _).mpr (by dsimp only; omega), ?_⟩
  rw [mem_block]
  obtain ⟨-, -, -, -, -, -, d0, d1, d2⟩ := idx1 ⟨((i 0).val * 4 + (i 1).val / 1024) * 11 + 10, by rw [hN]; omega⟩
  dsimp only at d0 d1 d2
  intro a
  match a with
  | ⟨0, _⟩ =>
    show win1_2.index _ (0 : Fin 3) * 1 ≤ (i 0).val ∧ (i 0).val < win1_2.index _ (0 : Fin 3) * 1 + 1
    rw [d0]; omega
  | ⟨1, _⟩ =>
    show win1_2.index _ (1 : Fin 3) * 1024 ≤ (i 1).val ∧ (i 1).val < win1_2.index _ (1 : Fin 3) * 1024 + 1024
    rw [d1]; omega
  | ⟨2, _⟩ =>
    show win1_2.index _ (2 : Fin 3) * 2048 ≤ (i 2).val ∧ (i 2).val < win1_2.index _ (2 : Fin 3) * 2048 + 2048
    rw [d2]; omega

/-- THE OUTPUT ARRAY after the second region: the down projection of the arrays the region enters with. -/
theorem output_array (c : Dev nD) :
    (dat1 V c).arrAt 2 cfg1.N = down (V c main_v1) (V c main_arg4) :=
  (dat1 V c).arrAt_eq_of_cover 2 _ (fun t hf => flushed_down V c t hf) covered

end Cert.KernelIdeal.Down

end
-- ==== Proof.KernelValue.lean ====
/-
  The idealized kernel's result is the layer of `SwigluSpec` on the stacked tokens.

  The run ends with the result buffer at the closing reshape of the second region's output array. That array is the
  down projection of what the second region entered with: the hidden array as the first region left it, and the down
  weights as launched. The hidden array is the hidden activation of what the first region entered with: the tokens
  reshaped to one slab per expert, and the gate and up weights as launched. Composed, the result is the
  specification's `result` of the four float arguments.
-/
import proofs.«121041_j5669356830747_2_alg».proof.Proof.RunValue
import proofs.«121041_j5669356830747_2_alg».proof.Proof.GateUpValue
import proofs.«121041_j5669356830747_2_alg».proof.Proof.DownValue
import proofs.«121041_j5669356830747_2_alg».proof.Proof.SwigluSpec

noncomputable section

namespace Cert.KernelIdeal.Whole

open Cert.KernelIdeal Cert.KernelIdeal.Gen Idealize.ShloMosaic Idealize.ShloMosaic.TcCoe Idealize.SL.Sem
open Cert.Swiglu

variable (m : (ℓ : Loc nD τ sig) → Buf (Elt Ideal) ℓ) (ρ : Dev nD → PrngReg)

/-- The result buffer's final contents, as the specification's function of the launched arguments. -/
theorem result_value (c : Dev nD) :
    W4 m ρ c (Proc.devRef .tc main_v3)
      = result shapeCasts_S32768x2048_S8x4096x2048 shapeCasts_S8x4096x2048_S32768x2048
          (m ((c.tc : Thread nD τ).loc main_arg0)) (m ((c.tc : Thread nD τ).loc main_arg2))
          (m ((c.tc : Thread nD τ).loc main_arg3)) (m ((c.tc : Thread nD τ).loc main_arg4)) := by
  rw [RunValue.result_fold, Down.output_array (V2 m ρ) c, RunValue.entry2_hidden, GateUp.hidden_array (V1 m ρ) c,
    RunValue.entry2_wdown, RunValue.entry1_tokens, RunValue.entry1_wgate, RunValue.entry1_wup]
  rfl

/-- Every weakly fair execution of the idealized kernel terminates, nothing faulting, with the result buffer at the
    specification's result of the launched arguments and the arguments unchanged. -/
theorem run : θ_run defs (onTc (τ := τ) (main (F := Ideal))) ⟨m, fun _ => 0, ρ⟩ (fun r => ∀ c : Dev nD,
      r.2.mem ((c.tc : Thread nD τ).loc main_v3)
        = result shapeCasts_S32768x2048_S8x4096x2048 shapeCasts_S8x4096x2048_S32768x2048
            (m ((c.tc : Thread nD τ).loc main_arg0)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_value m ρ c), (h c).2⟩) (RunValue.run_result m ρ)

end Cert.KernelIdeal.Whole

end
-- ==== Proof.RefValue.lean ====
/-
  The reference program's result is the layer of `SwigluSpec` on the stacked tokens.

  The reference reshapes the tokens to one slab per expert, takes the gate and up projections as two batched
  contractions, applies `silu` spelt out as `g · (1 / (1 + e^(-g)))`, multiplies by the up projection, contracts with the
  down weights over all 1408 hidden units at once, and reshapes back. Read one operation at a time at an index, each
  stage is the specification's function: the contractions are its sums term by term, and the spelt-out quotient is the
  logistic function on every extended real.
-/
import proofs.«121041_j5669356830747_2_alg».proof.Proof.Gen.ReferenceIdeal.Read
import proofs.«121041_j5669356830747_2_alg».proof.Proof.SwigluSpec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.Swiglu

/-! ## The contractions' operand indices, by coordinates -/

theorem lidx1 (i : S8x4096x1408.Idx) (k : Fin 2048) : lidx_main_v1 i k = ix3 (i 0) (i 1) k :=
  funext fun a => by match a with | ⟨0, _⟩ => rfl | ⟨1, _⟩ => rfl | ⟨2, _⟩ => rfl
theorem ridx1 (i : S8x4096x1408.Idx) (k : Fin 2048) : ridx_main_v1 i k = ix3 (i 0) k (i 2) :=
  funext fun a => by match a with | ⟨0, _⟩ => rfl | ⟨1, _⟩ => rfl | ⟨2, _⟩ => rfl
theorem lidx3 (i : S8x4096x1408.Idx) (k : Fin 2048) : lidx_main_v3 i k = ix3 (i 0) (i 1) k :=
  funext fun a => by match a with | ⟨0, _⟩ => rfl | ⟨1, _⟩ => rfl | ⟨2, _⟩ => rfl
theorem ridx3 (i : S8x4096x1408.Idx) (k : Fin 2048) : ridx_main_v3 i k = ix3 (i 0) k (i 2) :=
  funext fun a => by match a with | ⟨0, _⟩ => rfl | ⟨1, _⟩ => rfl | ⟨2, _⟩ => rfl
theorem lidx5 (i : S8x4096x2048.Idx) (k : Fin 1408) : lidx_main_v5 i k = ix3 (i 0) (i 1) k :=
  funext fun a => by match a with | ⟨0, _⟩ => rfl | ⟨1, _⟩ => rfl | ⟨2, _⟩ => rfl
theorem ridx5 (i : S8x4096x2048.Idx) (k : Fin 1408) : ridx_main_v5 i k = ix3 (i 0) k (i 2) :=
  funext fun a => by match a with | ⟨0, _⟩ => rfl | ⟨1, _⟩ => rfl | ⟨2, _⟩ => rfl

/-! ## The stages -/

variable (x0 : (⟨S32768x2048, .f32⟩ : BufTy).Contents (Elt Ideal)) (x2 x3 : (⟨S8x2048x1408, .f32⟩ : BufTy).Contents (Elt Ideal))
  (x4 : (⟨S8x1408x2048, .f32⟩ : BufTy).Contents (Elt Ideal))

/-- The gate contraction at an index is the specification's projection of the reshaped tokens. -/
theorem gate_eq (i : S8x4096x1408.Idx) :
    val_main_v1 (F := Ideal) x0 x2 i = proj (val_main_v0 (F := Ideal) x0) x2 (i 0) (i 1) (i 2) := by
  rw [val_main_v1_apply]
  unfold proj
  refine Finset.sum_congr rfl fun k _ => ?_
  rw [lidx1 i k, ridx1 i k]
  rfl

/-- The up contraction likewise. -/
theorem up_eq (i : S8x4096x1408.Idx) :
    val_main_v3 (F := Ideal) x0 x3 i = proj (val_main_v0 (F := Ideal) x0) x3 (i 0) (i 1) (i 2) := by
  rw [val_main_v3_apply]
  unfold proj
  refine Finset.sum_congr rfl fun k _ => ?_
  rw [lidx3 i k, ridx3 i k]
  rfl

/-- The product `silu (gate) · up`, with `silu` spelt through negate, exponential, add, divide and multiply, is the
    specification's hidden activation. -/
theorem hidden_eq : val_main_v4 (F := Ideal) x0 x2 x3 = hidden (val_main_v0 (F := Ideal) x0) x2 x3 := by
  funext i
  rw [val_main_v4_apply, val_main_v2_apply, val_main_call0_v5_apply, val_main_call0_v4_apply, val_main_call0_cst_0_apply,
    val_main_call0_v3_apply, val_main_call0_v2_apply, val_main_call0_cst_apply, val_main_call0_v1_apply,
    val_main_call0_v0_apply, gate_eq x0 x2 i, up_eq x0 x3 i]
  show proj _ x2 (i 0) (i 1) (i 2)
      * Ideal.div (Ideal.ofBits .f32 0x3F800000#32) (Ideal.ofBits .f32 0x3F800000#32 + Ideal.exp (-(proj _ x2 (i 0) (i 1) (i 2))))
      * proj _ x3 (i 0) (i 1) (i 2) = _
  rw [logistic_spelt]
  rfl

/-- The last contraction, over all 1408 hidden units, is the specification's down projection. -/
theorem down_eq : val_main_v5 (F := Ideal) x0 x2 x3 x4 = down (val_main_v4 (F := Ideal) x0 x2 x3) x4 := by
  funext i
  rw [val_main_v5_apply]
  show _ = downAt _ _ (i 0) (i 1) (i 2)
  unfold downAt
  refine Finset.sum_congr rfl fun k _ => ?_
  rw [lidx5 i k, ridx5 i k]
  rfl

/-- THE REFERENCE'S RESULT is the specification's on the stacked tokens. -/
theorem result_eq : val_main_v6 (F := Ideal) x0 x2 x3 x4
    = result shapeCasts_S32768x2048_S8x4096x2048 shapeCasts_S8x4096x2048_S32768x2048 x0 x2 x3 x4 := by
  unfold val_main_v6 result layer
  rw [down_eq, hidden_eq]
  rfl

end Cert.ReferenceIdeal.RefValue

end
-- ==== Proof.lean ====
/-
  The certificate of the grouped SwiGLU expert layer: a program of two grid kernels (gate/up projections with `silu`,
  then the down projection accumulated over eleven hidden tiles) against its reference of three batched contractions.

  The three frames are the generated frame runs (the reference's is its generated run with the result dropped). The
  idealization rewrote nothing, so `preserves` is trivial. For `algebraic`, both idealized programs end with their
  result at ONE function of the four float arguments — `Swiglu.result`, the specification of Proof/SwigluSpec.lean:
  the kernel by Proof/KernelValue.lean (over Proof/RunValue.lean, Proof/GateUpValue.lean, Proof/DownValue.lean), the
  reference by Proof/RefValue.lean — and the arguments agree. The only law between the two sides is that a sum of
  1408 extended reals is the sum of its eleven runs of 128, added in order from zero: commutativity and associativity
  of addition, so the precondition (finite inputs) is not used.
-/
import proofs.«121041_j5669356830747_2_alg».proof.Defs
import proofs.«121041_j5669356830747_2_alg».proof.Proof.Gen.Kernel
import proofs.«121041_j5669356830747_2_alg».proof.Proof.Gen.Kernel.Skeleton
import proofs.«121041_j5669356830747_2_alg».proof.Proof.Gen.Kernel.Launch
import proofs.«121041_j5669356830747_2_alg».proof.Proof.Gen.Kernel.Points
import proofs.«121041_j5669356830747_2_alg».proof.Proof.Gen.Kernel.Frame
import proofs.«121041_j5669356830747_2_alg».proof.Proof.Gen.KernelIdeal
import proofs.«121041_j5669356830747_2_alg».proof.Proof.Gen.KernelIdeal.Skeleton
import proofs.«121041_j5669356830747_2_alg».proof.Proof.Gen.KernelIdeal.Launch
import proofs.«121041_j5669356830747_2_alg».proof.Proof.Gen.KernelIdeal.Points
import proofs.«121041_j5669356830747_2_alg».proof.Proof.Gen.KernelIdeal.Frame
import proofs.«121041_j5669356830747_2_alg».proof.Proof.Gen.ReferenceIdeal
import proofs.«121041_j5669356830747_2_alg».proof.Proof.Gen.ReferenceIdeal.Run
import proofs.«121041_j5669356830747_2_alg».proof.Proof.Gen.ReferenceIdeal.Read
import proofs.«121041_j5669356830747_2_alg».proof.Proof.Gen.Pre_finite_inputs
import proofs.«121041_j5669356830747_2_alg».proof.Proof.KernelValue
import proofs.«121041_j5669356830747_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the specification's result of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
